-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x256 : Shape := ⟨2, ![65536, 256]⟩
abbrev S7x256x256 : Shape := ⟨3, ![7, 256, 256]⟩
abbrev S7x256 : Shape := ⟨2, ![7, 256]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S7x256x256 : S_.BroadcastsInDim S7x256x256 (![] : Fin 0 → Fin S7x256x256.rank)
  reducesTo_S7x256x256_S_d0_1_2 : S7x256x256.ReducesTo [0, 1, 2] S_
  bcast_S_S7x256 : S_.BroadcastsInDim S7x256 (![] : Fin 0 → Fin S7x256.rank)
  reducesTo_S7x256_S_d0_1 : S7x256.ReducesTo [0, 1] S_

variable [Facts]

def fn_part1 {F : FTy → Type} [FloatOps F] (main_arg4 : FVec F S7x256x256 .f32) (main_arg5 : FVec F S7x256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S7x256x256 .f32 := Host.absf main_arg4
  let main_cst_6 : FVec F S_ .f32 := constant S_ .f32 0x7F800000#32
  let main_v20 : FVec F S7x256x256 .f32 := broadcastInDim S7x256x256 ![] bcast_S_S7x256x256 main_cst_6
  let main_v21 : IVec S7x256x256 1 := cmpf .olt main_v19 main_v20
  let main_c_7 : IVec S_ 1 := constantI S_ 1 1#1
  let main_v22 : IVec S_ 1 := (fun x v => Host.reduce IntOp.andi x v reducesTo_S7x256x256_S_d0_1_2 h_S_) main_v21 main_c_7
  let main_v23 : IVec S_ 1 := andi main_v18 main_v22
  let main_v24 : FVec F S7x256 .f32 := Host.absf main_arg5
  let main_cst_8 : FVec F S_ .f32 := constant S_ .f32 0x7F800000#32
  let main_v25 : FVec F S7x256 .f32 := broadcastInDim S7x256 ![] bcast_S_S7x256 main_cst_8
  let main_v26 : IVec S7x256 1 := cmpf .olt main_v24 main_v25
  let main_c_9 : IVec S_ 1 := constantI S_ 1 1#1
  let main_v27 : IVec S_ 1 := (fun x v => Host.reduce IntOp.andi x v reducesTo_S7x256_S_d0_1 h_S_) main_v26 main_c_9
  let main_v28 : IVec S_ 1 := andi main_v23 main_v27
  main_v28

def fn {F : FTy → Type} [FloatOps F] (main_arg0 : FVec F S65536 .f32) (main_arg1 : FVec F S65536x256 .f32) (main_arg2 : FVec F S65536x256 .f32) (main_arg3 : FVec F S65536x256 .f32) (main_arg4 : FVec F S7x256x256 .f32) (main_arg5 : FVec F S7x256 .f32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_v13 main_v16
-- ==== Kernel.lean ====
abbrev S65536 : Shape := ⟨1, ![65536]⟩
abbrev S65536x256 : Shape := ⟨2, ![65536, 256]⟩
abbrev S7x256x256 : Shape := ⟨3, ![7, 256, 256]⟩
abbrev S7x256 : Shape := ⟨2, ![7, 256]⟩
abbrev S1x65536 : Shape := ⟨2, ![1, 65536]⟩
abbrev S256x7x256 : Shape := ⟨3, ![256, 7, 256]⟩
abbrev S256x1792 : Shape := ⟨2, ![256, 1792]⟩
abbrev S1x1792 : Shape := ⟨2, ![1, 1792]⟩
abbrev S1x1024 : Shape := ⟨2, ![1, 1024]⟩
abbrev S1024x256 : Shape := ⟨2, ![1024, 256]⟩
abbrev S1024x1 : Shape := ⟨2, ![1024, 1]⟩
abbrev S1024x1792 : Shape := ⟨2, ![1024, 1792]⟩

abbrev nBuf : Space → Nat
  | .hbm => 16
  | .vmem => 20
  | .smem => 0
  | _ => 0

abbrev bufTy : (tb : Table) → Fin (tcTables nBuf tb) → BufTy
  | .hbm, ⟨0, _⟩ => ⟨S65536, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S7x256x256, .f32⟩
  | .hbm, ⟨5, _⟩ => ⟨S7x256, .f32⟩
  | .hbm, ⟨6, _⟩ => ⟨S1x65536, .f32⟩
  | .hbm, ⟨7, _⟩ => ⟨S256x7x256, .f32⟩
  | .hbm, ⟨8, _⟩ => ⟨S256x1792, .f32⟩
  | .hbm, ⟨9, _⟩ => ⟨S256x1792, .bf16⟩
  | .hbm, ⟨10, _⟩ => ⟨S1x1792, .f32⟩
  | .hbm, ⟨11, _⟩ => ⟨S65536x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S65536x256, .f32⟩
  | .local _ .vmem, ⟨0, _⟩ => ⟨S1x1024, .f32⟩
  | .local _ .vmem, ⟨1, _⟩ => ⟨S1x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x1792, .bf16⟩
  | .local _ .vmem, ⟨9, _⟩ => ⟨S1x1792, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S65536_S1x65536 : S65536.ShapeCasts S1x65536
  transposes_S7x256x256_S256x7x256_2_0_1 : S7x256x256.Transposes [2, 0, 1] S256x7x256
  shapeCasts_S256x7x256_S256x1792 : S256x7x256.ShapeCasts S256x1792
  bitsLt_bf16_f32 : FTy.bits .bf16 < FTy.bits .f32
  shapeCasts_S7x256_S1x1792 : S7x256.ShapeCasts S1x1792
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  inb_S256x1792_S256x1792_0_0 : ∀ a, (![0, 0] : Fin 2 → Nat) a + S256x1792.size a ≤ S256x1792.size a
  h_S256x1792 : 0 < S256x1792.numel
  shapeCasts_S256x1792_S256x1792 : S256x1792.ShapeCasts S256x1792
  inb_S1x1792_S1x1792_0_0 : ∀ a, (![0, 0] : Fin 2 → Nat) a + S1x1792.size a ≤ S1x1792.size a
  h_S1x1792 : 0 < S1x1792.numel
  shapeCasts_S1x1792_S1x1792 : S1x1792.ShapeCasts S1x1792
  broadcasts_S1x1792_S1024x1792 : S1x1792.Broadcasts S1024x1792
  slices_S1024x1792_o0_1536_S1024x256 : S1024x1792.Slices ![0, 1536] S1024x256
  broadcasts_S1024x1_S1024x256 : S1024x1.Broadcasts S1024x256
  slices_S1024x1792_o0_512_S1024x256 : S1024x1792.Slices ![0, 512] S1024x256
  slices_S1024x1792_o0_0_S1024x256 : S1024x1792.Slices ![0, 0] S1024x256
  slices_S1024x1792_o0_256_S1024x256 : S1024x1792.Slices ![0, 256] S1024x256
  slices_S1024x1792_o0_1280_S1024x256 : S1024x1792.Slices ![0, 1280] S1024x256
  slices_S1024x1792_o0_768_S1024x256 : S1024x1792.Slices ![0, 768] S1024x256
  slices_S1024x1792_o0_1024_S1024x256 : S1024x1792.Slices ![0, 1024] S1024x256
  dot_S1024x256_S256x1792_S1024x1792_1_0_0_1_n_n_wf : DotDims.WF S1024x256 S256x1792 S1024x1792 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x65536.size a
  hwx0_0 : ∀ i : grid0.Coords, EltTy.bits .f32 = 32 ∨ (Rect.block (s := S1x65536) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1792.size a ≤ S256x1792.size a
  hwx0_4 : ∀ i : grid0.Coords, EltTy.bits .bf16 = 32 ∨ (Rect.block (s := S256x1792) S256x1792.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1792.size a ≤ S1x1792.size a
  hwx0_5 : ∀ i : grid0.Coords, EltTy.bits .f32 = 32 ∨ (Rect.block (s := S1x1792) S1x1792.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S65536x256.size a
  hwx0_8 : ∀ i : grid0.Coords, EltTy.bits .f32 = 32 ∨ (Rect.block (s := S65536x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S65536x256.size a
  hwx0_9 : ∀ i : grid0.Coords, EltTy.bits .f32 = 32 ∨ (Rect.block (s := S65536x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S65536x256.size a
  hwx0_10 : ∀ i : grid0.Coords, EltTy.bits .f32 = 32 ∨ (Rect.block (s := S65536x256) S1024x256.size (cc0_transform_10 i) (hinb0_10 i)).WholeWords (EltTy.packing .f32)

variable [Facts₀]

def dot_S1024x256_S256x1792_S1024x1792_1_0_0_1_n_n : DotDims S1024x256 S256x1792 S1024x1792 where
  lhsContracting := [1]
  rhsContracting := [0]
  lhsNonContracting := [0]
  rhsNonContracting := [1]
  lhsBatch := []
  rhsBatch := []
  wf := dot_S1024x256_S256x1792_S1024x1792_1_0_0_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1792.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1792.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_3) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_4) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536 : Shape := ⟨1, ![65536]⟩
abbrev S65536x256 : Shape := ⟨2, ![65536, 256]⟩
abbrev S7x256x256 : Shape := ⟨3, ![7, 256, 256]⟩
abbrev S7x256 : Shape := ⟨2, ![7, 256]⟩
abbrev S7x256x65536 : Shape := ⟨3, ![7, 256, 65536]⟩
abbrev S7x65536x256 : Shape := ⟨3, ![7, 65536, 256]⟩
abbrev S7x1x256 : Shape := ⟨3, ![7, 1, 256]⟩
abbrev S1x65536x256 : Shape := ⟨3, ![1, 65536, 256]⟩
abbrev S_ : Shape := ⟨0, ![]⟩
abbrev S65536x1 : Shape := ⟨2, ![65536, 1]⟩

abbrev nBuf : Space → Nat
  | .hbm => 96
  | .vmem => 0
  | .smem => 0
  | _ => 0

abbrev bufTy : (tb : Table) → Fin (tcTables nBuf tb) → BufTy
  | .hbm, ⟨0, _⟩ => ⟨S65536, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S7x256x256, .f32⟩
  | .hbm, ⟨5, _⟩ => ⟨S7x256, .f32⟩
  | .hbm, ⟨6, _⟩ => ⟨S7x256x65536, .f32⟩
  | .hbm, ⟨7, _⟩ => ⟨S7x65536x256, .f32⟩
  | .hbm, ⟨8, _⟩ => ⟨S7x1x256, .f32⟩
  | .hbm, ⟨9, _⟩ => ⟨S7x65536x256, .f32⟩
  | .hbm, ⟨10, _⟩ => ⟨S7x65536x256, .f32⟩
  | .hbm, ⟨11, _⟩ => ⟨S1x65536x256, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S1x65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S1x65536x256, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S_, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S1x65536x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S_, .f32⟩
  | .hbm, ⟨46, _⟩ => ⟨S65536x256, .f32⟩
  | .hbm, ⟨47, _⟩ => ⟨S65536x256, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S1x65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S_, .f32⟩
  | .hbm, ⟨56, _⟩ => ⟨S65536x256, .f32⟩
  | .hbm, ⟨57, _⟩ => ⟨S65536x256, .f32⟩
  | .hbm, ⟨58, _⟩ => ⟨S_, .f32⟩
  | .hbm, ⟨59, _⟩ => ⟨S65536x256, .f32⟩
  | .hbm, ⟨60, _⟩ => ⟨S65536x256, .f32⟩
  | .hbm, ⟨61, _⟩ => ⟨S1x65536x256, .f32⟩
  | .hbm, ⟨62, _⟩ => ⟨S65536x256, .f32⟩
  | .hbm, ⟨63, _⟩ => ⟨S65536x256, .f32⟩
  | .hbm, ⟨64, _⟩ => ⟨S1x65536x256, .f32⟩
  | .hbm, ⟨65, _⟩ => ⟨S65536x256, .f32⟩
  | .hbm, ⟨66, _⟩ => ⟨S_, .f32⟩
  | .hbm, ⟨67, _⟩ => ⟨S65536x256, .f32⟩
  | .hbm, ⟨68, _⟩ => ⟨S65536x256, .f32⟩
  | .hbm, ⟨69, _⟩ => ⟨S65536x256, .f32⟩
  | .hbm, ⟨70, _⟩ => ⟨S65536x256, .f32⟩
  | .hbm, ⟨71, _⟩ => ⟨S65536x256, .i1⟩
  | .hbm, ⟨72, _⟩ => ⟨S65536x256, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S65536x256, .f32⟩
  | .hbm, ⟨79, _⟩ => ⟨S65536x256, .f32⟩
  | .hbm, ⟨80, _⟩ => ⟨S65536x1, .f32⟩
  | .hbm, ⟨81, _⟩ => ⟨S65536x256, .f32⟩
  | .hbm, ⟨82, _⟩ => ⟨S65536x256, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S65536x256, .f32⟩
  | .hbm, ⟨88, _⟩ => ⟨S65536x256, .f32⟩
  | .hbm, ⟨89, _⟩ => ⟨S65536x256, .f32⟩
  | .hbm, ⟨90, _⟩ => ⟨S65536x256, .f32⟩
  | .hbm, ⟨91, _⟩ => ⟨S65536x256, .f32⟩
  | .hbm, ⟨92, _⟩ => ⟨S65536x256, .f32⟩
  | .hbm, ⟨93, _⟩ => ⟨S65536x256, .f32⟩
  | .hbm, ⟨94, _⟩ => ⟨S65536x256, .f32⟩
  | .hbm, ⟨95, _⟩ => ⟨S65536x256, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  transposes_S7x256x65536_S7x65536x256_0_2_1 : S7x256x65536.Transposes [0, 2, 1] S7x65536x256
  bcast_S7x256_S7x1x256_0_2 : S7x256.BroadcastsInDim S7x1x256 (![0, 2] : Fin 2 → Fin S7x1x256.rank)
  bcast_S7x1x256_S7x65536x256_0_1_2 : S7x1x256.BroadcastsInDim S7x65536x256 (![0, 1, 2] : Fin 3 → Fin S7x65536x256.rank)
  slices_S7x65536x256_S1x65536x256_0_0_0 : S7x65536x256.Slices ![0, 0, 0] S1x65536x256
  shapeCasts_S1x65536x256_S65536x256 : S1x65536x256.ShapeCasts S65536x256
  bcast_S_S65536x256 : S_.BroadcastsInDim S65536x256 (![] : Fin 0 → Fin S65536x256.rank)
  slices_S7x65536x256_S1x65536x256_1_0_0 : S7x65536x256.Slices ![1, 0, 0] S1x65536x256
  slices_S7x65536x256_S1x65536x256_2_0_0 : S7x65536x256.Slices ![2, 0, 0] S1x65536x256
  slices_S7x65536x256_S1x65536x256_3_0_0 : S7x65536x256.Slices ![3, 0, 0] S1x65536x256
  slices_S7x65536x256_S1x65536x256_4_0_0 : S7x65536x256.Slices ![4, 0, 0] S1x65536x256
  slices_S7x65536x256_S1x65536x256_5_0_0 : S7x65536x256.Slices ![5, 0, 0] S1x65536x256
  slices_S7x65536x256_S1x65536x256_6_0_0 : S7x65536x256.Slices ![6, 0, 0] S1x65536x256
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  dot_S7x256x256_S65536x256_S7x256x65536_2_1_01_0_n_n_wf : DotDims.WF S7x256x256 S65536x256 S7x256x65536 [2] [1] [0, 1] [0] [] []

variable [Facts₀]

def dot_S7x256x256_S65536x256_S7x256x65536_2_1_01_0_n_n : DotDims S7x256x256 S65536x256 S7x256x65536 where
  lhsContracting := [2]
  rhsContracting := [1]
  lhsNonContracting := [0, 1]
  rhsNonContracting := [0]
  lhsBatch := []
  rhsBatch := []
  wf := dot_S7x256x256_S65536x256_S7x256x65536_2_1_01_0_n_n_wf

class Facts : Prop extends Facts₀ where

variable [Facts]
-- ==== Proof.Spec.lean ====
/-
  The mathematics both programs compute, stated once over the extended reals.

  The inputs are a vector of inter-event times `dt[r]`, three arrays `h[r, k]`, `c[r, o]`, `cbar[r, o]` over 65536 rows and
  256 lanes, seven stacked 256 x 256 weight matrices `W[g, o, k]` and seven bias rows `b[g, o]`.  Gate `g`'s pre-activation
  at row `r`, lane `o` is the affine form
      gate g (r, o) = (sum over k of W[g, o, k] * h[r, k]) + b[g, o].
  With sigma the logistic function 1 / (1 + e^(-x)) and softplus x = max x 0 + log (1 + e^(-|x|)) (behind a guard `x - 0 ≠ x - 0`
  that never fires on the extended reals), the five results are
      decay     = softplus (gate 6)
      cell(t)   = cbar + (c - cbar) * e^((-decay) * dt[r])
      outGate   = sigma (gate 2)
      hidden    = outGate * tanh (cell(t))
      cellNew   = sigma (gate 1) * cell(t) + sigma (gate 0) * tanh (gate 5)
      cbarNew   = sigma (gate 4) * cbar    + sigma (gate 3) * tanh (gate 5).
  Every operation is written with the floating-point interface's name read at the exact instance, so that each program's
  term unfolds to these by definition; the only facts proved here are the ones where the two programs spell one function
  differently: the one-operation logistic against its expansion, and `0 - y` against `-y`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.GateCell

/-- The shapes of the argument arrays. -/
abbrev STimes : Shape := ⟨1, ![65536]⟩
abbrev SRows : Shape := ⟨2, ![65536, 256]⟩
abbrev SWeights : Shape := ⟨3, ![7, 256, 256]⟩
abbrev SBias : Shape := ⟨2, ![7, 256]⟩

/-- The 32-bit words of `0.0` and `1.0` read as extended reals. -/
abbrev zeroW : Ideal .f32 := FloatOps.ofBits .f32 0x00000000#32
abbrev oneW : Ideal .f32 := FloatOps.ofBits .f32 0x3F800000#32

theorem oneW_eq : Ideal.ofBits .f32 0x3F800000#32 = 1 := by
  simp [Ideal.ofBits, Ideal.ieee, -EReal.coe_mul]; norm_num

/-! ## The scalar functions -/

/-- The logistic function as the quotient `1 / (1 + e^(-x))`. -/
def sigma (x : Ideal .f32) : Ideal .f32 :=
  FloatOps.hostDivf oneW (FloatOps.addf oneW (FloatOps.hostUnary .exp (FloatOps.hostNegf x)))

/-- The one-operation logistic is that quotient: on the extended reals it is DEFINED as `1 / (1 + e^(-x))`, and the
    word of `1.0` is the real number one. -/
theorem logistic_eq_sigma (x : Ideal .f32) : FloatOps.logistic (F := Ideal) x = sigma x := by
  show Ideal.logistic x = Ideal.div (Ideal.ofBits .f32 0x3F800000#32) (Ideal.ofBits .f32 0x3F800000#32 + Ideal.exp (-x))
  rw [oneW_eq]
  rfl

/-- `softplus x = max x 0 + log (1 + e^(-|x - 0|))`, chosen by a comparison of `x - 0` with itself. -/
def softplus (x : Ideal .f32) : Ideal .f32 :=
  Scalar.select (FloatOps.cmpf .une (FloatOps.subf x zeroW) (FloatOps.subf x zeroW)) (FloatOps.addf x zeroW)
    (FloatOps.addf (FloatOps.maximumf x zeroW)
      (FloatOps.hostUnary .log1p (FloatOps.hostUnary .exp (FloatOps.hostNegf (FloatOps.hostAbsf (FloatOps.subf x zeroW))))))

/-- Subtracting from the zero word is negation: `0 - y = -y` on the extended reals. -/
theorem zero_sub_eq_neg (y : Ideal .f32) : FloatOps.subf zeroW y = FloatOps.hostNegf y := by
  show Ideal.ofBits .f32 0x00000000#32 - y = -y
  rw [Ideal.ofBits_zero_f32, zero_sub]

/-- The same function with the ordered comparison for the unordered one (both read `x ≠ y` where nothing is unordered)
    and `0 - |x - 0|` for the negation. -/
theorem softplus_sub_form (x : Ideal .f32) :
    Scalar.select (FloatOps.cmpf .one (FloatOps.subf x zeroW) (FloatOps.subf x zeroW)) (FloatOps.addf x zeroW)
      (FloatOps.addf (FloatOps.maximumf x zeroW)
        (FloatOps.log1p (FloatOps.exp (FloatOps.subf zeroW (FloatOps.absf (FloatOps.subf x zeroW))))))
    = softplus x := by
  rw [zero_sub_eq_neg]
  rfl

/-- The cell memory decayed over the elapsed time: `cbar + (c - cbar) * e^((-s) * dt)`. -/
def decayed (dt c cb s : Ideal .f32) : Ideal .f32 :=
  FloatOps.addf cb (FloatOps.mulf (FloatOps.subf c cb) (FloatOps.hostUnary .exp (FloatOps.mulf (FloatOps.hostNegf s) dt)))

/-- The same with `0 - s` for `-s`. -/
theorem decayed_sub_form (dt c cb s : Ideal .f32) :
    FloatOps.addf cb (FloatOps.mulf (FloatOps.subf c cb) (FloatOps.exp (FloatOps.mulf (FloatOps.subf zeroW s) dt)))
    = decayed dt c cb s := by
  rw [zero_sub_eq_neg]
  rfl

/-! ## The arrays -/

variable (dt : FVec Ideal STimes .f32) (h c cb : FVec Ideal SRows .f32) (W : FVec Ideal SWeights .f32) (b : FVec Ideal SBias .f32)

/-- Gate `g`'s pre-activation at row `r`, lane `o`. -/
def gateAt (g : Fin 7) (r : Fin 65536) (o : Fin 256) : Ideal .f32 :=
  FloatOps.addf (∑ k : Fin 256, W (ix3 g o k) * h (ix2 r k)) (b (ix2 g o))

def gate (g : Fin 7) (i : SRows.Idx) : Ideal .f32 := gateAt h W b g (i 0) (i 1)

def decay : FVec Ideal SRows .f32 := fun i => softplus (gate h W b 6 i)

def cellT : FVec Ideal SRows .f32 := fun i => decayed (dt (ix1 (i 0))) (c i) (cb i) (decay h W b i)

def outGate : FVec Ideal SRows .f32 := fun i => sigma (gate h W b 2 i)

def hidden : FVec Ideal SRows .f32 := fun i =>
  FloatOps.mulf (sigma (gate h W b 2 i)) (FloatOps.hostUnary .tanh (cellT dt h c cb W b i))

def cellNew : FVec Ideal SRows .f32 := fun i =>
  FloatOps.addf (FloatOps.mulf (sigma (gate h W b 1 i)) (cellT dt h c cb W b i))
    (FloatOps.mulf (sigma (gate h W b 0 i)) (FloatOps.hostUnary .tanh (gate h W b 5 i)))

def cbarNew : FVec Ideal SRows .f32 := fun i =>
  FloatOps.addf (FloatOps.mulf (sigma (gate h W b 4 i)) (cb i))
    (FloatOps.mulf (sigma (gate h W b 3 i)) (FloatOps.hostUnary .tanh (gate h W b 5 i)))

end Cert.GateCell

end
-- ==== Proof.Staged.lean ====
/-
  The three arrays the host prepares before the launch, read at an index.

  Before the launch the host reshapes the time vector `dt[r]` into a single row `[1, 65536]`; transposes the stacked weights
  `W[g, o, k]` to `[k, g, o]`, flattens the last two axes into 1792 columns (column `g * 256 + o`) and changes their float
  format (the identity on the extended reals); and flattens the biases `b[g, o]` into one row of the same 1792 columns.  So
      times row  [0, r]            = dt[r]
      weights    [k, g * 256 + o]  = W[g, o, k]
      bias row   [0, g * 256 + o]  = b[g, o].
-/
import proofs.«160114_j27230092657708_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.ValueIdx Idealize.ShloMosaic.TcCoe Idealize.ShloMosaic.StableHlo Idealize.SL.Sem

namespace Cert.KernelIdeal.Staged

open Cert.KernelIdeal Cert.KernelIdeal.Gen

variable (m : (ℓ : Loc nD τ sig) → Buf (Elt Ideal) ℓ)

/-- Gate `g`'s lane `o` among the 1792 fused columns. -/
def gateCol (g : Fin 7) (o : Fin 256) : Fin 1792 :=
  ⟨g.val * 256 + o.val, by have := g.isLt; have := o.isLt; omega⟩

theorem gateCol_val (g : Fin 7) (o : Fin 256) : (gateCol g o).val = g.val * 256 + o.val := rfl

/-! ## The arrays as the host operations' terms -/

theorem times_eq (c : Dev nD) :
    (V m c main_v0 : S1x65536.Idx → EReal)
      = shapeCast S1x65536 (m ((c : Thread nD τ).loc main_arg0) : S65536.Idx → EReal) shapeCasts_S65536_S1x65536 := by
  dsimp only [Gen.V, Gen.hostOps0]; after_results; rfl

theorem weights_eq (c : Dev nD) :
    (V m c main_v3 : S256x1792.Idx → EReal)
      = truncf (F := Ideal) .bf16 (shapeCast S256x1792 (transpose S256x7x256 [2, 0, 1]
          (m ((c : Thread nD τ).loc main_arg4) : S7x256x256.Idx → EReal) transposes_S7x256x256_S256x7x256_2_0_1)
          shapeCasts_S256x7x256_S256x1792) bitsLt_bf16_f32 := by
  dsimp only [Gen.V, Gen.hostOps0]; after_results; rfl

theorem bias_eq (c : Dev nD) :
    (V m c main_v4 : S1x1792.Idx → EReal)
      = shapeCast S1x1792 (m ((c : Thread nD τ).loc main_arg5) : S7x256.Idx → EReal) shapeCasts_S7x256_S1x1792 := by
  dsimp only [Gen.V, Gen.hostOps0]; after_results; rfl

/-! ## Read at an index -/

/-- The single row of times at column `r` is `dt[r]`. -/
theorem times_apply (c : Dev nD) (r : Fin 65536) :
    (V m c main_v0 : S1x65536.Idx → EReal) (ix2 (n0 := 1) (n1 := 65536) 0 r)
      = (m ((c : Thread nD τ).loc main_arg0) : S65536.Idx → EReal) (ix1 r) := by
  rw [times_eq]
  exact shapeCast_apply _ shapeCasts_S65536_S1x65536 _ _
    (by rewrite [Shape.rowMajor_val_one, Shape.rowMajor_val_two]; show r.val = 0 * 65536 + r.val; omega)

/-- The fused weight matrix at row `k`, column `g * 256 + o` is `W[g, o, k]`. -/
theorem weights_apply (c : Dev nD) (k : Fin 256) (g : Fin 7) (o : Fin 256) :
    (V m c main_v3 : S256x1792.Idx → EReal) (ix2 (n0 := 256) (n1 := 1792) k (gateCol g o))
      = (m ((c : Thread nD τ).loc main_arg4) : S7x256x256.Idx → EReal) (ix3 g o k) := by
  rw [weights_eq]
  show (shapeCast S256x1792 (transpose S256x7x256 [2, 0, 1]
      (m ((c : Thread nD τ).loc main_arg4) : S7x256x256.Idx → EReal) transposes_S7x256x256_S256x7x256_2_0_1)
      shapeCasts_S256x7x256_S256x1792) (ix2 (n0 := 256) (n1 := 1792) k (gateCol g o)) = _
  rw [shapeCast_apply _ shapeCasts_S256x7x256_S256x1792 (ix2 (n0 := 256) (n1 := 1792) k (gateCol g o))
    (ix3 (n0 := 256) (n1 := 7) (n2 := 256) k g o)
    (by rewrite [Shape.rowMajor_val_three, Shape.rowMajor_val_two]
        show (k.val * 7 + g.val) * 256 + o.val = k.val * 1792 + (g.val * 256 + o.val); omega)]
  exact transpose_apply [2, 0, 1] _ transposes_S7x256x256_S256x7x256_2_0_1
    (ix3 (n0 := 256) (n1 := 7) (n2 := 256) k g o) (ix3 (n0 := 7) (n1 := 256) (n2 := 256) g o k)
    (fun b => match b with
      | ⟨0, _⟩ => rfl
      | ⟨1, _⟩ => rfl
      | ⟨2, _⟩ => rfl)

/-- The single bias row at column `g * 256 + o` is `b[g, o]`. -/
theorem bias_apply (c : Dev nD) (g : Fin 7) (o : Fin 256) :
    (V m c main_v4 : S1x1792.Idx → EReal) (ix2 (n0 := 1) (n1 := 1792) 0 (gateCol g o))
      = (m ((c : Thread nD τ).loc main_arg5) : S7x256.Idx → EReal) (ix2 g o) := by
  rw [bias_eq]
  exact shapeCast_apply _ shapeCasts_S7x256_S1x1792 _ _
    (by rewrite [Shape.rowMajor_val_two, Shape.rowMajor_val_two]
        show g.val * 256 + o.val = 0 * 1792 + (g.val * 256 + o.val); omega)

end Cert.KernelIdeal.Staged

end
-- ==== Proof.Blocks.lean ====
/-
  What each input block holds at a grid point.

  The grid has 64 points; point `t` works on rows `1024 t … 1024 t + 1023`.  The block of `h`, of `c` and of `cbar` at
  point `t` is those rows of the array (all 256 lanes); the block of the time row is its columns `1024 t … 1024 t + 1023`;
  the fused weight matrix and the bias row are staged whole at every point.  A block coordinate is always the block index
  times the block's extent plus the coordinate inside the block, and the block indices are decided once over the grid.
-/
import proofs.«160114_j27230092657708_2_alg».proof.Proof.Gen.KernelIdeal.Frame
import proofs.«160114_j27230092657708_2_alg».proof.Proof.Staged
import Idealize.ShloMosaic.Lib.Pipeline.Value
import Idealize.ShloMosaic.Lib.ValueIdx

noncomputable section

open Idealize.ShloMosaic Idealize.ShloMosaic.ValueIdx Idealize.ShloMosaic.TcCoe Idealize.SL.Sem

namespace Cert.KernelIdeal.Blocks

open Cert.KernelIdeal Cert.KernelIdeal.Gen Cert.KernelIdeal.Staged

variable (m : (ℓ : Loc nD τ sig) → Buf (Elt Ideal) ℓ)

/-- The input windows' block indices at every point: the time row moves along its columns, the three row arrays along
    their rows, the weights and the bias stay. -/
theorem in_idx : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The output windows' block indices: each moves along the rows with the point. -/
theorem out_idx : ∀ t : Fin cfg0.N,
    win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The block of the time row at point `t`, column `j 1`, is `dt` at row `1024 t + j 1`. -/
theorem times_blk (c : Dev nD) (t : Fin cfg0.N) (j : S1x1024.Idx) (r : Fin 65536) (hr : r.val = t.val * 1024 + (j 1).val) :
    (iblk m c 0 t : Vec Ideal S1x1024 .f32) j = (m ((c : Thread nD τ).loc main_arg0) : S65536.Idx → EReal) (ix1 r) := by
  obtain ⟨e0, e1, -⟩ := in_idx t
  unfold iblk
  rw [View.read_apply]
  show (V m c main_v0 : S1x65536.Idx → EReal) _ = _
  refine Eq.trans (congrArg (V m c main_v0 : S1x65536.Idx → EReal) ?_) (times_apply m c r)
  funext a; apply Fin.ext
  match a with
  | ⟨0, _⟩ => show win0_0.index t (0 : Fin 2) * 1 + 1 * (j 0).val = 0; have hj : (j 0).val < 1 := (j 0).isLt; rw [e0]; omega
  | ⟨1, _⟩ => show win0_0.index t (1 : Fin 2) * 1024 + 1 * (j 1).val = r.val; rw [e1, hr]; omega

/-- The blocks of the three row arrays at point `t` are rows `1024 t + j 0` of the arrays. -/
theorem h_blk (c : Dev nD) (t : Fin cfg0.N) (j : S1024x256.Idx) (i : S65536x256.Idx)
    (hi0 : (i 0).val = t.val * 1024 + (j 0).val) (hi1 : (i 1).val = (j 1).val) :
    (iblk m c 1 t : Vec Ideal S1024x256 .f32) j = (m ((c : Thread nD τ).loc main_arg1) : S65536x256.Idx → EReal) i := by
  obtain ⟨-, -, e0, e1, -⟩ := in_idx t
  unfold iblk
  rw [View.read_apply]
  show (V m c main_arg1 : S65536x256.Idx → EReal) _ = _
  rw [V_main_arg1]
  congr 1; funext a; apply Fin.ext
  match a with
  | ⟨0, _⟩ => show win0_1.index t (0 : Fin 2) * 1024 + 1 * (j 0).val = (i 0).val; rw [e0, hi0]; omega
  | ⟨1, _⟩ => show win0_1.index t (1 : Fin 2) * 256 + 1 * (j 1).val = (i 1).val; rw [e1, hi1]; omega

theorem c_blk (c : Dev nD) (t : Fin cfg0.N) (j : S1024x256.Idx) (i : S65536x256.Idx)
    (hi0 : (i 0).val = t.val * 1024 + (j 0).val) (hi1 : (i 1).val = (j 1).val) :
    (iblk m c 2 t : Vec Ideal S1024x256 .f32) j = (m ((c : Thread nD τ).loc main_arg2) : S65536x256.Idx → EReal) i := by
  obtain ⟨-, -, -, -, e0, e1, -⟩ := in_idx t
  unfold iblk
  rw [View.read_apply]
  show (V m c main_arg2 : S65536x256.Idx → EReal) _ = _
  rw [V_main_arg2]
  congr 1; funext a; apply Fin.ext
  match a with
  | ⟨0, _⟩ => show win0_2.index t (0 : Fin 2) * 1024 + 1 * (j 0).val = (i 0).val; rw [e0, hi0]; omega
  | ⟨1, _⟩ => show win0_2.index t (1 : Fin 2) * 256 + 1 * (j 1).val = (i 1).val; rw [e1, hi1]; omega

theorem cbar_blk (c : Dev nD) (t : Fin cfg0.N) (j : S1024x256.Idx) (i : S65536x256.Idx)
    (hi0 : (i 0).val = t.val * 1024 + (j 0).val) (hi1 : (i 1).val = (j 1).val) :
    (iblk m c 3 t : Vec Ideal S1024x256 .f32) j = (m ((c : Thread nD τ).loc main_arg3) : S65536x256.Idx → EReal) i := by
  obtain ⟨-, -, -, -, -, -, e0, e1, -⟩ := in_idx t
  unfold iblk
  rw [View.read_apply]
  show (V m c main_arg3 : S65536x256.Idx → EReal) _ = _
  rw [V_main_arg3]
  congr 1; funext a; apply Fin.ext
  match a with
  | ⟨0, _⟩ => show win0_3.index t (0 : Fin 2) * 1024 + 1 * (j 0).val = (i 0).val; rw [e0, hi0]; omega
  | ⟨1, _⟩ => show win0_3.index t (1 : Fin 2) * 256 + 1 * (j 1).val = (i 1).val; rw [e1, hi1]; omega

/-- The staged weight matrix at row `k`, column `g * 256 + o` is `W[g, o, k]`, at every point. -/
theorem w_blk (c : Dev nD) (t : Fin cfg0.N) (j : S256x1792.Idx) (k : Fin 256) (g : Fin 7) (o : Fin 256)
    (hj0 : (j 0).val = k.val) (hj1 : (j 1).val = g.val * 256 + o.val) :
    (iblk m c 4 t : Vec Ideal S256x1792 .bf16) j = (m ((c : Thread nD τ).loc main_arg4) : S7x256x256.Idx → EReal) (ix3 g o k) := by
  obtain ⟨-, -, -, -, -, -, -, -, e0, e1, -⟩ := in_idx t
  unfold iblk
  rw [View.read_apply]
  show (V m c main_v3 : S256x1792.Idx → EReal) _ = _
  refine Eq.trans (congrArg (V m c main_v3 : S256x1792.Idx → EReal) ?_) (weights_apply m c k g o)
  funext a; apply Fin.ext
  match a with
  | ⟨0, _⟩ => show win0_4.index t (0 : Fin 2) * 256 + 1 * (j 0).val = k.val; rw [e0, hj0]; omega
  | ⟨1, _⟩ => show win0_4.index t (1 : Fin 2) * 1792 + 1 * (j 1).val = g.val * 256 + o.val; rw [e1, hj1]; omega

/-- The staged bias row at column `g * 256 + o` is `b[g, o]`, at every point. -/
theorem b_blk (c : Dev nD) (t : Fin cfg0.N) (j : S1x1792.Idx) (g : Fin 7) (o : Fin 256)
    (hj1 : (j 1).val = g.val * 256 + o.val) :
    (iblk m c 5 t : Vec Ideal S1x1792 .f32) j = (m ((c : Thread nD τ).loc main_arg5) : S7x256.Idx → EReal) (ix2 g o) := by
  obtain ⟨-, -, -, -, -, -, -, -, -, -, e0, e1⟩ := in_idx t
  unfold iblk
  rw [View.read_apply]
  show (V m c main_v4 : S1x1792.Idx → EReal) _ = _
  refine Eq.trans (congrArg (V m c main_v4 : S1x1792.Idx → EReal) ?_) (bias_apply m c g o)
  funext a; apply Fin.ext
  match a with
  | ⟨0, _⟩ => show win0_5.index t (0 : Fin 2) * 1 + 1 * (j 0).val = 0; have hj : (j 0).val < 1 := (j 0).isLt; rw [e0]; omega
  | ⟨1, _⟩ => show win0_5.index t (1 : Fin 2) * 1792 + 1 * (j 1).val = g.val * 256 + o.val; rw [e1, hj1]; omega

end Cert.KernelIdeal.Blocks

end
-- ==== Proof.Logits.lean ====
/-
  The gate pre-activations inside one block of 1024 rows.

  The body multiplies the block of `h` (1024 x 256, its change of float format the identity on the extended reals) with the
  resident 256 x 1792 matrix into a zero accumulator and adds the resident 1 x 1792 bias row broadcast down the rows.  Read at
  row `p`, column `q` that is
      (sum over k of x[p, k] * w[k, q]) + bias[0, q]:
  the contraction's left operand is read at (row of the result, k), its right operand at (k, column of the result), and a
  matrix product into the zero word is the plain sum.
-/
import proofs.«160114_j27230092657708_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx Idealize.ShloMosaic.TcCoe

namespace Cert.KernelIdeal.Logits

open Cert.KernelIdeal Cert.KernelIdeal.Gen

/-! ## Where the contraction reads its operands -/

theorem lhs_row (j : S1024x1792.Idx) (q : dot_S1024x256_S256x1792_S1024x1792_1_0_0_1_n_n.contr.Idx) :
    (dot_S1024x256_S256x1792_S1024x1792_1_0_0_1_n_n.lhsIdx j q 0).val = (j 0).val := by
  unfold DotDims.lhsIdx
  rw [dif_neg (show ¬(0 : Fin S1024x256.rank) ∈ dot_S1024x256_S256x1792_S1024x1792_1_0_0_1_n_n.lhsBatch by decide),
    dif_pos (show (0 : Fin S1024x256.rank) ∈ dot_S1024x256_S256x1792_S1024x1792_1_0_0_1_n_n.lhsNonContracting by decide)]
  rfl

theorem lhs_contr (j : S1024x1792.Idx) (q : dot_S1024x256_S256x1792_S1024x1792_1_0_0_1_n_n.contr.Idx) :
    (dot_S1024x256_S256x1792_S1024x1792_1_0_0_1_n_n.lhsIdx j q 1).val = (q ⟨0, by decide⟩).val :=
  dot_S1024x256_S256x1792_S1024x1792_1_0_0_1_n_n.lhsIdx_val_of_single rfl j q

theorem rhs_contr (j : S1024x1792.Idx) (q : dot_S1024x256_S256x1792_S1024x1792_1_0_0_1_n_n.contr.Idx) :
    (dot_S1024x256_S256x1792_S1024x1792_1_0_0_1_n_n.rhsIdx j q 0).val = (q ⟨0, by decide⟩).val :=
  dot_S1024x256_S256x1792_S1024x1792_1_0_0_1_n_n.rhsIdx_val_of_single rfl j q

theorem rhs_col (j : S1024x1792.Idx) (q : dot_S1024x256_S256x1792_S1024x1792_1_0_0_1_n_n.contr.Idx) :
    (dot_S1024x256_S256x1792_S1024x1792_1_0_0_1_n_n.rhsIdx j q 1).val = (j 1).val := by
  unfold DotDims.rhsIdx
  rw [dif_neg (show ¬(1 : Fin S256x1792.rank) ∈ dot_S1024x256_S256x1792_S1024x1792_1_0_0_1_n_n.rhsBatch by decide),
    dif_pos (show (1 : Fin S256x1792.rank) ∈ dot_S1024x256_S256x1792_S1024x1792_1_0_0_1_n_n.rhsNonContracting by decide)]
  rfl

/-- The matrix product into the zero accumulator, at row `j 0` and column `j 1`: the sum over the 256 contracted
    positions of the left operand's row entry times the right operand's column entry. -/
theorem matmul_zero_at (x : FVec Ideal S1024x256 .bf16) (w : FVec Ideal S256x1792 .bf16) (j : S1024x1792.Idx) :
    FloatOps.matmul dot_S1024x256_S256x1792_S1024x1792_1_0_0_1_n_n none x w (constant (F := Ideal) S1024x1792 .f32 0x00000000#32) j
      = ∑ k : Fin 256, x (ix2 (n0 := 1024) (n1 := 256) (j 0) k) * w (ix2 (n0 := 256) (n1 := 1792) k (j 1)) := by
  rw [Ideal.matmul_constant_zero_apply,
    ← Equiv.sum_comp (contrEquiv1 dot_S1024x256_S256x1792_S1024x1792_1_0_0_1_n_n 256 rfl rfl).symm]
  refine Finset.sum_congr rfl fun k _ => ?_
  have hk := contrEquiv1_symm_val dot_S1024x256_S256x1792_S1024x1792_1_0_0_1_n_n 256 rfl rfl k
  have el : dot_S1024x256_S256x1792_S1024x1792_1_0_0_1_n_n.lhsIdx j
      ((contrEquiv1 dot_S1024x256_S256x1792_S1024x1792_1_0_0_1_n_n 256 rfl rfl).symm k)
      = ix2 (n0 := 1024) (n1 := 256) (j 0) k := funext fun a => Fin.ext (by
    match a with
    | ⟨0, _⟩ => exact lhs_row _ _
    | ⟨1, _⟩ => exact (lhs_contr _ _).trans hk)
  have er : dot_S1024x256_S256x1792_S1024x1792_1_0_0_1_n_n.rhsIdx j
      ((contrEquiv1 dot_S1024x256_S256x1792_S1024x1792_1_0_0_1_n_n 256 rfl rfl).symm k)
      = ix2 (n0 := 256) (n1 := 1792) k (j 1) := funext fun a => Fin.ext (by
    match a with
    | ⟨0, _⟩ => exact (rhs_contr _ _).trans hk
    | ⟨1, _⟩ => exact rhs_col _ _)
  rw [el, er]

/-- The pre-activation payload at row `j 0`, column `j 1` of the block. -/
theorem preact_apply (x0 : Vec Ideal S1024x256 .f32) (w2 : Vec Ideal S256x1792 .bf16) (bf : Vec Ideal S1x1792 .f32)
    (j : S1024x1792.Idx) :
    k0_pay5 (F := Ideal) x0 w2 bf j
      = FloatOps.addf (∑ k : Fin 256, x0 (ix2 (n0 := 1024) (n1 := 256) (j 0) k) * w2 (ix2 (n0 := 256) (n1 := 1792) k (j 1)))
          (bf (ix2 (n0 := 1) (n1 := 1792) 0 (j 1))) := by
  unfold k0_pay5
  show FloatOps.addf
      (FloatOps.matmul dot_S1024x256_S256x1792_S1024x1792_1_0_0_1_n_n none (truncf .bf16 x0 bitsLt_bf16_f32)
        (shapeCast S256x1792 w2 shapeCasts_S256x1792_S256x1792) (constant (F := Ideal) S1024x1792 .f32 0x00000000#32) j)
      (broadcastTo S1024x1792 (shapeCast S1x1792 bf shapeCasts_S1x1792_S1x1792) broadcasts_S1x1792_S1024x1792 j) = _
  rw [shapeCast_self, shapeCast_self, matmul_zero_at,
    broadcastTo_apply bf broadcasts_S1x1792_S1024x1792 j (ix2 (n0 := 1) (n1 := 1792) 0 (j 1)) (fun a => by
      match a with
      | ⟨0, _⟩ => show (0 : Nat) = if (1 : Nat) = 1 then 0 else _; rw [if_pos rfl]
      | ⟨1, _⟩ => show (j 1).val = if (1792 : Nat) = 1 then 0 else _; rw [if_neg (by decide)]; rfl)]
  rfl

end Cert.KernelIdeal.Logits

end
-- ==== Proof.Point.lean ====
/-
  What one grid point leaves in each output block.

  Fix a block index `y` (row `y 0` of the block's 1024, lane `y 1` of 256) and the array position `(r, o)` it stands for.
  Suppose the six staged blocks hold, at the coordinates the body reads them, the entries of the argument arrays that belong to
  that position: the time at row `r`; row `r` of `h`; `c[r, o]` and `cbar[r, o]`; column `g * 256 + o` of the fused
  weights, which is `W[g, o, ·]`; and `b[g, o]` from the bias row.  Then the pre-activation payload read at column
  `o + 256 g` of row `y 0` is gate `g`'s pre-activation at `(r, o)` (the products commute into the specification's order),
  and each of the five stored values, which the body assembles from such pre-activations by pointwise operations, is the
  specification's result at `(r, o)`: the one-operation logistic is the quotient `1 / (1 + e^(-x))`, and `0 - s` is `-s`.
-/
import proofs.«160114_j27230092657708_2_alg».proof.Proof.KernelIdealValueP
import proofs.«160114_j27230092657708_2_alg».proof.Proof.Logits
import proofs.«160114_j27230092657708_2_alg».proof.Proof.Spec
import Idealize.ShloMosaic.Lib.Pipeline.Value
import Idealize.ShloMosaic.Lib.ValueIdx

noncomputable section

open Idealize.ShloMosaic Idealize.ShloMosaic.ValueIdx Idealize.ShloMosaic.TcCoe Idealize.SL.Sem

namespace Cert.KernelIdeal.Point

open Cert.KernelIdeal Cert.KernelIdeal.Gen Cert.KernelIdeal.ValueP Cert.GateCell

theorem zero_off : (![0, 0] : Fin 2 → Nat) = fun _ => 0 := funext fun a => by fin_cases a <;> rfl

variable (x0 : Vec Ideal S1x1024 .f32) (x1 x2 x3 : Vec Ideal S1024x256 .f32) (x4 : Vec Ideal S256x1792 .bf16)
  (x5 : Vec Ideal S1x1792 .f32)
variable (dt : FVec Ideal STimes .f32) (h c cb : FVec Ideal SRows .f32) (W : FVec Ideal SWeights .f32)
  (b : FVec Ideal SBias .f32)
variable (y : S1024x256.Idx) (r : Fin 65536) (o : Fin 256)

/-- The pre-activation payload at row `y 0`, column `o + 256 g` of the block is gate `g`'s pre-activation at `(r, o)`. -/
theorem preact_gate
    (H1 : ∀ (j : S1024x256.Idx) (k : Fin 256), (j 0).val = (y 0).val → (j 1).val = k.val → x1 j = h (ix2 r k))
    (H4 : ∀ (j : S256x1792.Idx) (k : Fin 256) (g : Fin 7), (j 0).val = k.val → (j 1).val = (y 1).val + g.val * 256 →
      x4 j = W (ix3 g o k))
    (H5 : ∀ (j : S1x1792.Idx) (g : Fin 7), (j 1).val = (y 1).val + g.val * 256 → x5 j = b (ix2 g o))
    (j : S1024x1792.Idx) (g : Fin 7) (hj0 : (j 0).val = (y 0).val) (hj1 : (j 1).val = (y 1).val + g.val * 256) :
    k0_pay5 (F := Ideal) x1 x4 x5 j = gateAt h W b g r o := by
  rw [Logits.preact_apply]
  unfold gateAt
  rw [H5 (ix2 (n0 := 1) (n1 := 1792) 0 (j 1)) g hj1]
  congr 1
  refine Finset.sum_congr rfl fun k _ => ?_
  rw [H1 (ix2 (n0 := 1024) (n1 := 256) (j 0) k) k hj0 rfl, H4 (ix2 (n0 := 256) (n1 := 1792) k (j 1)) k g rfl hj1, mul_comm]

section
variable
    (H0 : ∀ j : S1x1024.Idx, (j 1).val = (y 0).val → x0 j = dt (ix1 r))
    (H1 : ∀ (j : S1024x256.Idx) (k : Fin 256), (j 0).val = (y 0).val → (j 1).val = k.val → x1 j = h (ix2 r k))
    (H2 : ∀ j : S1024x256.Idx, (j 0).val = (y 0).val → (j 1).val = (y 1).val → x2 j = c (ix2 r o))
    (H3 : ∀ j : S1024x256.Idx, (j 0).val = (y 0).val → (j 1).val = (y 1).val → x3 j = cb (ix2 r o))
    (H4 : ∀ (j : S256x1792.Idx) (k : Fin 256) (g : Fin 7), (j 0).val = k.val → (j 1).val = (y 1).val + g.val * 256 →
      x4 j = W (ix3 g o k))
    (H5 : ∀ (j : S1x1792.Idx) (g : Fin 7), (j 1).val = (y 1).val + g.val * 256 → x5 j = b (ix2 g o))

include H1 H4 H5 in
/-- The output-gate block: `sigma (gate 2)`. -/
theorem outGate_at : out0_6 (F := Ideal) x0 x1 x2 x3 x4 x5 y = outGate h W b (ix2 r o) := by
  unfold out0_6
  refine (canon6_eq (F := Ideal) _ _ _ y).trans ?_
  simp only [View.ld_unit_zero (S := S1024x256) zero_off, View.ld_unit_zero (S := S256x1792) zero_off,
    View.ld_unit_zero (S := S1x1792) zero_off]
  unfold E6
  simp only [preact_gate x1 x4 x5 h W b y r o H1 H4 H5 (ix6_0 y) 2 rfl rfl]
  rw [logistic_eq_sigma]
  rfl

include H1 H4 H5 in
/-- The decay block: `softplus (gate 6)`. -/
theorem decay_at : out0_10 (F := Ideal) x0 x1 x2 x3 x4 x5 y = decay h W b (ix2 r o) := by
  unfold out0_10
  refine (canon10_eq (F := Ideal) _ _ _ y).trans ?_
  simp only [View.ld_unit_zero (S := S1024x256) zero_off, View.ld_unit_zero (S := S256x1792) zero_off,
    View.ld_unit_zero (S := S1x1792) zero_off]
  unfold E10
  simp only [preact_gate x1 x4 x5 h W b y r o H1 H4 H5 (ix10_0 y) 6 rfl rfl,
    preact_gate x1 x4 x5 h W b y r o H1 H4 H5 (ix10_1 y) 6 rfl rfl,
    preact_gate x1 x4 x5 h W b y r o H1 H4 H5 (ix10_2 y) 6 rfl rfl,
    preact_gate x1 x4 x5 h W b y r o H1 H4 H5 (ix10_3 y) 6 rfl rfl,
    preact_gate x1 x4 x5 h W b y r o H1 H4 H5 (ix10_4 y) 6 rfl rfl]
  rw [softplus_sub_form]
  rfl

include H3 H1 H4 H5 in
/-- The new baseline block: `sigma (gate 4) * cbar + sigma (gate 3) * tanh (gate 5)`. -/
theorem cbarNew_at : out0_9 (F := Ideal) x0 x1 x2 x3 x4 x5 y = cbarNew h cb W b (ix2 r o) := by
  unfold out0_9
  refine (canon9_eq (F := Ideal) _ _ _ _ y).trans ?_
  simp only [View.ld_unit_zero (S := S1024x256) zero_off, View.ld_unit_zero (S := S256x1792) zero_off,
    View.ld_unit_zero (S := S1x1792) zero_off]
  unfold E9
  simp only [preact_gate x1 x4 x5 h W b y r o H1 H4 H5 (ix9_0 y) 4 rfl rfl,
    preact_gate x1 x4 x5 h W b y r o H1 H4 H5 (ix9_2 y) 3 rfl rfl,
    preact_gate x1 x4 x5 h W b y r o H1 H4 H5 (ix9_3 y) 5 rfl rfl,
    H3 (ix9_1 y) rfl rfl]
  rw [logistic_eq_sigma, logistic_eq_sigma]
  rfl

include H0 H1 H2 H3 H4 H5 in
/-- The hidden-state block: `sigma (gate 2) * tanh (cell(t))`. -/
theorem hidden_at : out0_7 (F := Ideal) x0 x1 x2 x3 x4 x5 y = hidden dt h c cb W b (ix2 r o) := by
  unfold out0_7
  refine (canon7_eq (F := Ideal) _ _ _ _ _ _ y).trans ?_
  simp only [View.ld_unit_zero (S := S1024x256) zero_off, View.ld_unit_zero (S := S256x1792) zero_off,
    View.ld_unit_zero (S := S1x1792) zero_off, View.ld_unit_zero (S := S1x1024) zero_off]
  unfold E7
  simp only [preact_gate x1 x4 x5 h W b y r o H1 H4 H5 (ix7_0 y) 2 rfl rfl,
    preact_gate x1 x4 x5 h W b y r o H1 H4 H5 (ix7_4 y) 6 rfl rfl,
    preact_gate x1 x4 x5 h W b y r o H1 H4 H5 (ix7_5 y) 6 rfl rfl,
    preact_gate x1 x4 x5 h W b y r o H1 H4 H5 (ix7_6 y) 6 rfl rfl,
    preact_gate x1 x4 x5 h W b y r o H1 H4 H5 (ix7_7 y) 6 rfl rfl,
    preact_gate x1 x4 x5 h W b y r o H1 H4 H5 (ix7_8 y) 6 rfl rfl,
    H3 (ix7_1 y) rfl rfl, H2 (ix7_2 y) rfl rfl, H3 (ix7_3 y) rfl rfl, H0 (ix7_9 y) rfl]
  rw [logistic_eq_sigma, softplus_sub_form, decayed_sub_form]
  rfl

include H0 H1 H2 H3 H4 H5 in
/-- The new cell block: `sigma (gate 1) * cell(t) + sigma (gate 0) * tanh (gate 5)`. -/
theorem cellNew_at : out0_8 (F := Ideal) x0 x1 x2 x3 x4 x5 y = cellNew dt h c cb W b (ix2 r o) := by
  unfold out0_8
  refine (canon8_eq (F := Ideal) _ _ _ _ _ _ y).trans ?_
  simp only [View.ld_unit_zero (S := S1024x256) zero_off, View.ld_unit_zero (S := S256x1792) zero_off,
    View.ld_unit_zero (S := S1x1792) zero_off, View.ld_unit_zero (S := S1x1024) zero_off]
  unfold E8
  simp only [preact_gate x1 x4 x5 h W b y r o H1 H4 H5 (ix8_0 y) 1 rfl rfl,
    preact_gate x1 x4 x5 h W b y r o H1 H4 H5 (ix8_4 y) 6 rfl rfl,
    preact_gate x1 x4 x5 h W b y r o H1 H4 H5 (ix8_5 y) 6 rfl rfl,
    preact_gate x1 x4 x5 h W b y r o H1 H4 H5 (ix8_6 y) 6 rfl rfl,
    preact_gate x1 x4 x5 h W b y r o H1 H4 H5 (ix8_7 y) 6 rfl rfl,
    preact_gate x1 x4 x5 h W b y r o H1 H4 H5 (ix8_8 y) 6 rfl rfl,
    preact_gate x1 x4 x5 h W b y r o H1 H4 H5 (ix8_10 y) 0 rfl rfl,
    preact_gate x1 x4 x5 h W b y r o H1 H4 H5 (ix8_11 y) 5 rfl rfl,
    H3 (ix8_1 y) rfl rfl, H2 (ix8_2 y) rfl rfl, H3 (ix8_3 y) rfl rfl, H0 (ix8_9 y) rfl]
  rw [logistic_eq_sigma, logistic_eq_sigma, softplus_sub_form, decayed_sub_form]
  rfl

end

end Cert.KernelIdeal.Point

end
-- ==== Proof.Arrays.lean ====
/-
  From blocks to whole arrays.

  Each of the five results is written back block by block: point `t` writes rows `1024 t … 1024 t + 1023`.  A coordinate
  `y` inside point `t`'s block is array position `(1024 t + y 0, y 1)`; the six staged blocks hold there exactly the entries
  of the argument arrays that belong to that position; so what the point writes back is block `t` of the specification's
  array.  The 64 blocks cover all 65536 rows (row `r` lies in block `r / 1024`), hence after the run each result array IS
  the specification's array, and the arguments are as they were.
-/
import proofs.«160114_j27230092657708_2_alg».proof.Proof.Gen.KernelIdeal.Frame
import proofs.«160114_j27230092657708_2_alg».proof.Proof.KernelIdealValueP
import proofs.«160114_j27230092657708_2_alg».proof.Proof.Blocks
import proofs.«160114_j27230092657708_2_alg».proof.Proof.Point
import proofs.«160114_j27230092657708_2_alg».proof.Proof.Spec
import Idealize.ShloMosaic.Lib.Pipeline.Value
import Idealize.ShloMosaic.Lib.ValueIdx

noncomputable section

open Idealize.ShloMosaic Idealize.ShloMosaic.ValueIdx Idealize.ShloMosaic.TcCoe Idealize.SL.Sem
open Idealize.ShloMosaic.Pipeline (Dat)

namespace Cert.KernelIdeal.Arrays

open Cert.KernelIdeal Cert.KernelIdeal.Gen Cert.GateCell

variable (m : (ℓ : Loc nD τ sig) → Buf (Elt Ideal) ℓ) (ρ : Dev nD → PrngReg)

/-! ## The argument arrays on a core, and the row a block coordinate stands for -/

abbrev aT (c : Dev nD) : FVec Ideal STimes .f32 := m ((c : Thread nD τ).loc main_arg0)
abbrev aH (c : Dev nD) : FVec Ideal SRows .f32 := m ((c : Thread nD τ).loc main_arg1)
abbrev aC (c : Dev nD) : FVec Ideal SRows .f32 := m ((c : Thread nD τ).loc main_arg2)
abbrev aCb (c : Dev nD) : FVec Ideal SRows .f32 := m ((c : Thread nD τ).loc main_arg3)
abbrev aW (c : Dev nD) : FVec Ideal SWeights .f32 := m ((c : Thread nD τ).loc main_arg4)
abbrev aB (c : Dev nD) : FVec Ideal SBias .f32 := m ((c : Thread nD τ).loc main_arg5)

/-- Row `y 0` of point `t`'s block is row `1024 t + y 0` of the array; its lane is `y 1`. -/
def rowAt (t : Fin cfg0.N) (y : S1024x256.Idx) : Fin 65536 :=
  ⟨t.val * 1024 + (y 0).val, by
    have ht : t.val < 64 := Nat.lt_of_lt_of_eq t.isLt N_0
    have hy : (y 0).val < 1024 := (y 0).isLt
    omega⟩

def laneAt (y : S1024x256.Idx) : Fin 256 := ⟨(y 1).val, (y 1).isLt⟩

/-! ## What the staged blocks hold at the coordinates the body reads, for the array position of `y` -/

section AtPoint

variable (c : Dev nD) (t : Fin cfg0.N) (y : S1024x256.Idx)

theorem at_times : ∀ j : S1x1024.Idx, (j 1).val = (y 0).val →
    (iblk m c 0 t : Vec Ideal S1x1024 .f32) j = aT m c (ix1 (rowAt t y)) :=
  fun j hj => Blocks.times_blk m c t j (rowAt t y) (by show t.val * 1024 + (y 0).val = t.val * 1024 + (j 1).val; rw [hj])

theorem at_h : ∀ (j : S1024x256.Idx) (k : Fin 256), (j 0).val = (y 0).val → (j 1).val = k.val →
    (iblk m c 1 t : Vec Ideal S1024x256 .f32) j = aH m c (ix2 (rowAt t y) k) :=
  fun j k h0 h1 => Blocks.h_blk m c t j (ix2 (rowAt t y) k)
    (by show t.val * 1024 + (y 0).val = t.val * 1024 + (j 0).val; rw [h0])
    (by show k.val = (j 1).val; rw [h1])

theorem at_c : ∀ j : S1024x256.Idx, (j 0).val = (y 0).val → (j 1).val = (y 1).val →
    (iblk m c 2 t : Vec Ideal S1024x256 .f32) j = aC m c (ix2 (rowAt t y) (laneAt y)) :=
  fun j h0 h1 => Blocks.c_blk m c t j (ix2 (rowAt t y) (laneAt y))
    (by show t.val * 1024 + (y 0).val = t.val * 1024 + (j 0).val; rw [h0])
    (by show (y 1).val = (j 1).val; rw [h1])

theorem at_cbar : ∀ j : S1024x256.Idx, (j 0).val = (y 0).val → (j 1).val = (y 1).val →
    (iblk m c 3 t : Vec Ideal S1024x256 .f32) j = aCb m c (ix2 (rowAt t y) (laneAt y)) :=
  fun j h0 h1 => Blocks.cbar_blk m c t j (ix2 (rowAt t y) (laneAt y))
    (by show t.val * 1024 + (y 0).val = t.val * 1024 + (j 0).val; rw [h0])
    (by show (y 1).val = (j 1).val; rw [h1])

theorem at_w : ∀ (j : S256x1792.Idx) (k : Fin 256) (g : Fin 7), (j 0).val = k.val → (j 1).val = (y 1).val + g.val * 256 →
    (iblk m c 4 t : Vec Ideal S256x1792 .bf16) j = aW m c (ix3 g (laneAt y) k) :=
  fun j k g h0 h1 => Blocks.w_blk m c t j k g (laneAt y) h0
    (by rw [h1]; show (y 1).val + g.val * 256 = g.val * 256 + (y 1).val; omega)

theorem at_b : ∀ (j : S1x1792.Idx) (g : Fin 7), (j 1).val = (y 1).val + g.val * 256 →
    (iblk m c 5 t : Vec Ideal S1x1792 .f32) j = aB m c (ix2 g (laneAt y)) :=
  fun j g h1 => Blocks.b_blk m c t j g (laneAt y)
    (by rw [h1]; show (y 1).val + g.val * 256 = g.val * 256 + (y 1).val; omega)

end AtPoint

/-! ## Output window 6: the output gate -/

/-- A coordinate `y` of point `t`'s block is row `1024 t + y 0`, lane `y 1` of the array. -/
theorem emb6 (t : Fin cfg0.N) (y : S1024x256.Idx) :
    ((cfg0.win 6).blk t).view.emb y = ix2 (rowAt t y) (laneAt y) := by
  obtain ⟨e6_0, e6_1, e7_0, e7_1, e8_0, e8_1, e9_0, e9_1, e10_0, e10_1⟩ := Blocks.out_idx t
  funext a; apply Fin.ext
  match a with
  | ⟨0, _⟩ => show win0_6.index t (0 : Fin 2) * 1024 + 1 * (y 0).val = t.val * 1024 + (y 0).val; rw [e6_0]; omega
  | ⟨1, _⟩ => show win0_6.index t (1 : Fin 2) * 256 + 1 * (y 1).val = (y 1).val; rw [e6_1]; omega

/-- What point `t` writes back is block `t` of the specification's array. -/
theorem flushed6_eq (c : Dev nD) (t : Fin cfg0.N) :
    (dats m 0 c).flushed 6 t = ((cfg0.win 6).blk t).view.read (Elt Ideal) (outGate (aH m c) (aW m c) (aB m c)) := by
  rw [ValueP.flushed6]
  funext y
  show out0_6 (iblk m c 0 t) (iblk m c 1 t) (iblk m c 2 t) (iblk m c 3 t) (iblk m c 4 t) (iblk m c 5 t) y
    = outGate (aH m c) (aW m c) (aB m c) (((cfg0.win 6).blk t).view.emb y)
  rw [emb6]
  exact Point.outGate_at (iblk m c 0 t) (iblk m c 1 t) (iblk m c 2 t) (iblk m c 3 t) (iblk m c 4 t) (iblk m c 5 t)
    (aH m c) (aW m c) (aB m c) y (rowAt t y) (laneAt y) (at_h m c t y) (at_w m c t y) (at_b m c t y)

/-- An array index lies in point `t`'s block exactly when each coordinate lies in the block's range on its axis. -/
theorem mem_blk6 (t : Fin cfg0.N) (i : S65536x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v5_0).slice (win0_6.rect t)).set ↔ _
  rw [View.set_slice_whole, Rect.mem_set_unit]
  exact Iff.rfl

/-- Every array index is in some point's block: row `r` belongs to point `r / 1024`. -/
theorem cover6 (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, by rw [show cfg0.N = 64 from N_0]; omega⟩, rfl⟩
  obtain ⟨e6_0, e6_1, e7_0, e7_1, e8_0, e8_1, e9_0, e9_1, e10_0, e10_1⟩ := Blocks.out_idx t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    rw [e6_0, ht]; omega
  | ⟨1, _⟩ =>
    show win0_6.index t (1 : Fin 2) * 256 ≤ (i 1).val ∧ (i 1).val < win0_6.index t (1 : Fin 2) * 256 + 256
    rw [e6_1]; omega

/-- So after the run the whole array is the specification's. -/
theorem final6 (c : Dev nD) : (dats m 0 c).arrAt 6 cfg0.N = outGate (aH m c) (aW m c) (aB m c) :=
  (dats m 0 c).arrAt_eq_of_cover 6 (outGate (aH m c) (aW m c) (aB m c)) (fun t _ => flushed6_eq m c t) cover6

/-! ## Output window 7: the hidden state -/

/-- A coordinate `y` of point `t`'s block is row `1024 t + y 0`, lane `y 1` of the array. -/
theorem emb7 (t : Fin cfg0.N) (y : S1024x256.Idx) :
    ((cfg0.win 7).blk t).view.emb y = ix2 (rowAt t y) (laneAt y) := by
  obtain ⟨e6_0, e6_1, e7_0, e7_1, e8_0, e8_1, e9_0, e9_1, e10_0, e10_1⟩ := Blocks.out_idx t
  funext a; apply Fin.ext
  match a with
  | ⟨0, _⟩ => show win0_7.index t (0 : Fin 2) * 1024 + 1 * (y 0).val = t.val * 1024 + (y 0).val; rw [e7_0]; omega
  | ⟨1, _⟩ => show win0_7.index t (1 : Fin 2) * 256 + 1 * (y 1).val = (y 1).val; rw [e7_1]; omega

/-- What point `t` writes back is block `t` of the specification's array. -/
theorem flushed7_eq (c : Dev nD) (t : Fin cfg0.N) :
    (dats m 0 c).flushed 7 t = ((cfg0.win 7).blk t).view.read (Elt Ideal) (hidden (aT m c) (aH m c) (aC m c) (aCb m c) (aW m c) (aB m c)) := by
  rw [ValueP.flushed7]
  funext y
  show out0_7 (iblk m c 0 t) (iblk m c 1 t) (iblk m c 2 t) (iblk m c 3 t) (iblk m c 4 t) (iblk m c 5 t) y
    = hidden (aT m c) (aH m c) (aC m c) (aCb m c) (aW m c) (aB m c) (((cfg0.win 7).blk t).view.emb y)
  rw [emb7]
  exact Point.hidden_at (iblk m c 0 t) (iblk m c 1 t) (iblk m c 2 t) (iblk m c 3 t) (iblk m c 4 t) (iblk m c 5 t)
    (aT m c) (aH m c) (aC m c) (aCb m c) (aW m c) (aB m c) y (rowAt t y) (laneAt y) (at_times m c t y) (at_h m c t y) (at_c m c t y) (at_cbar m c t y) (at_w m c t y) (at_b m c t y)

/-- An array index lies in point `t`'s block exactly when each coordinate lies in the block's range on its axis. -/
theorem mem_blk7 (t : Fin cfg0.N) (i : S65536x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v5_1).slice (win0_7.rect t)).set ↔ _
  rw [View.set_slice_whole, Rect.mem_set_unit]
  exact Iff.rfl

/-- Every array index is in some point's block: row `r` belongs to point `r / 1024`. -/
theorem cover7 (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, by rw [show cfg0.N = 64 from N_0]; omega⟩, rfl⟩
  obtain ⟨e6_0, e6_1, e7_0, e7_1, e8_0, e8_1, e9_0, e9_1, e10_0, e10_1⟩ := Blocks.out_idx t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    rw [e7_0, ht]; omega
  | ⟨1, _⟩ =>
    show win0_7.index t (1 : Fin 2) * 256 ≤ (i 1).val ∧ (i 1).val < win0_7.index t (1 : Fin 2) * 256 + 256
    rw [e7_1]; omega

/-- So after the run the whole array is the specification's. -/
theorem final7 (c : Dev nD) : (dats m 0 c).arrAt 7 cfg0.N = hidden (aT m c) (aH m c) (aC m c) (aCb m c) (aW m c) (aB m c) :=
  (dats m 0 c).arrAt_eq_of_cover 7 (hidden (aT m c) (aH m c) (aC m c) (aCb m c) (aW m c) (aB m c)) (fun t _ => flushed7_eq m c t) cover7

/-! ## Output window 8: the new cell memory -/

/-- A coordinate `y` of point `t`'s block is row `1024 t + y 0`, lane `y 1` of the array. -/
theorem emb8 (t : Fin cfg0.N) (y : S1024x256.Idx) :
    ((cfg0.win 8).blk t).view.emb y = ix2 (rowAt t y) (laneAt y) := by
  obtain ⟨e6_0, e6_1, e7_0, e7_1, e8_0, e8_1, e9_0, e9_1, e10_0, e10_1⟩ := Blocks.out_idx t
  funext a; apply Fin.ext
  match a with
  | ⟨0, _⟩ => show win0_8.index t (0 : Fin 2) * 1024 + 1 * (y 0).val = t.val * 1024 + (y 0).val; rw [e8_0]; omega
  | ⟨1, _⟩ => show win0_8.index t (1 : Fin 2) * 256 + 1 * (y 1).val = (y 1).val; rw [e8_1]; omega

/-- What point `t` writes back is block `t` of the specification's array. -/
theorem flushed8_eq (c : Dev nD) (t : Fin cfg0.N) :
    (dats m 0 c).flushed 8 t = ((cfg0.win 8).blk t).view.read (Elt Ideal) (cellNew (aT m c) (aH m c) (aC m c) (aCb m c) (aW m c) (aB m c)) := by
  rw [ValueP.flushed8]
  funext y
  show out0_8 (iblk m c 0 t) (iblk m c 1 t) (iblk m c 2 t) (iblk m c 3 t) (iblk m c 4 t) (iblk m c 5 t) y
    = cellNew (aT m c) (aH m c) (aC m c) (aCb m c) (aW m c) (aB m c) (((cfg0.win 8).blk t).view.emb y)
  rw [emb8]
  exact Point.cellNew_at (iblk m c 0 t) (iblk m c 1 t) (iblk m c 2 t) (iblk m c 3 t) (iblk m c 4 t) (iblk m c 5 t)
    (aT m c) (aH m c) (aC m c) (aCb m c) (aW m c) (aB m c) y (rowAt t y) (laneAt y) (at_times m c t y) (at_h m c t y) (at_c m c t y) (at_cbar m c t y) (at_w m c t y) (at_b m c t y)

/-- An array index lies in point `t`'s block exactly when each coordinate lies in the block's range on its axis. -/
theorem mem_blk8 (t : Fin cfg0.N) (i : S65536x256.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v5_2).slice (win0_8.rect t)).set ↔ _
  rw [View.set_slice_whole, Rect.mem_set_unit]
  exact Iff.rfl

/-- Every array index is in some point's block: row `r` belongs to point `r / 1024`. -/
theorem cover8 (i : S65536x256.Idx) :
    ∃ t : Fin cfg0.N, (cfg0.win 8).flush t = true ∧ i ∈ ((cfg0.win 8).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, by rw [show cfg0.N = 64 from N_0]; omega⟩, rfl⟩
  obtain ⟨e6_0, e6_1, e7_0, e7_1, e8_0, e8_1, e9_0, e9_1, e10_0, e10_1⟩ := Blocks.out_idx t
  refine ⟨t, flush0_8 t, ?_⟩
  rw [mem_blk8]
  intro a
  match a with
  | ⟨0, _⟩ =>
    show win0_8.index t (0 : Fin 2) * 1024 ≤ (i 0).val ∧ (i 0).val < win0_8.index t (0 : Fin 2) * 1024 + 1024
    rw [e8_0, ht]; omega
  | ⟨1, _⟩ =>
    show win0_8.index t (1 : Fin 2) * 256 ≤ (i 1).val ∧ (i 1).val < win0_8.index t (1 : Fin 2) * 256 + 256
    rw [e8_1]; omega

/-- So after the run the whole array is the specification's. -/
theorem final8 (c : Dev nD) : (dats m 0 c).arrAt 8 cfg0.N = cellNew (aT m c) (aH m c) (aC m c) (aCb m c) (aW m c) (aB m c) :=
  (dats m 0 c).arrAt_eq_of_cover 8 (cellNew (aT m c) (aH m c) (aC m c) (aCb m c) (aW m c) (aB m c)) (fun t _ => flushed8_eq m c t) cover8

/-! ## Output window 9: the new baseline memory -/

/-- A coordinate `y` of point `t`'s block is row `1024 t + y 0`, lane `y 1` of the array. -/
theorem emb9 (t : Fin cfg0.N) (y : S1024x256.Idx) :
    ((cfg0.win 9).blk t).view.emb y = ix2 (rowAt t y) (laneAt y) := by
  obtain ⟨e6_0, e6_1, e7_0, e7_1, e8_0, e8_1, e9_0, e9_1, e10_0, e10_1⟩ := Blocks.out_idx t
  funext a; apply Fin.ext
  match a with
  | ⟨0, _⟩ => show win0_9.index t (0 : Fin 2) * 1024 + 1 * (y 0).val = t.val * 1024 + (y 0).val; rw [e9_0]; omega
  | ⟨1, _⟩ => show win0_9.index t (1 : Fin 2) * 256 + 1 * (y 1).val = (y 1).val; rw [e9_1]; omega

/-- What point `t` writes back is block `t` of the specification's array. -/
theorem flushed9_eq (c : Dev nD) (t : Fin cfg0.N) :
    (dats m 0 c).flushed 9 t = ((cfg0.win 9).blk t).view.read (Elt Ideal) (cbarNew (aH m c) (aCb m c) (aW m c) (aB m c)) := by
  rw [ValueP.flushed9]
  funext y
  show out0_9 (iblk m c 0 t) (iblk m c 1 t) (iblk m c 2 t) (iblk m c 3 t) (iblk m c 4 t) (iblk m c 5 t) y
    = cbarNew (aH m c) (aCb m c) (aW m c) (aB m c) (((cfg0.win 9).blk t).view.emb y)
  rw [emb9]
  exact Point.cbarNew_at (iblk m c 0 t) (iblk m c 1 t) (iblk m c 2 t) (iblk m c 3 t) (iblk m c 4 t) (iblk m c 5 t)
    (aH m c) (aCb m c) (aW m c) (aB m c) y (rowAt t y) (laneAt y) (at_h m c t y) (at_cbar m c t y) (at_w m c t y) (at_b m c t y)

/-- An array index lies in point `t`'s block exactly when each coordinate lies in the block's range on its axis. -/
theorem mem_blk9 (t : Fin cfg0.N) (i : S65536x256.Idx) :
    i ∈ ((cfg0.win 9).blk t).view.set ↔ ∀ a : Fin 2, win0_9.index t a * S1024x256.size a ≤ (i a).val
      ∧ (i a).val < win0_9.index t a * S1024x256.size a + S1024x256.size a := by
  show i ∈ ((View.whole main_v5_3).slice (win0_9.rect t)).set ↔ _
  rw [View.set_slice_whole, Rect.mem_set_unit]
  exact Iff.rfl

/-- Every array index is in some point's block: row `r` belongs to point `r / 1024`. -/
theorem cover9 (i : S65536x256.Idx) :
    ∃ t : Fin cfg0.N, (cfg0.win 9).flush t = true ∧ i ∈ ((cfg0.win 9).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, by rw [show cfg0.N = 64 from N_0]; omega⟩, rfl⟩
  obtain ⟨e6_0, e6_1, e7_0, e7_1, e8_0, e8_1, e9_0, e9_1, e10_0, e10_1⟩ := Blocks.out_idx t
  refine ⟨t, flush0_9 t, ?_⟩
  rw [mem_blk9]
  intro a
  match a with
  | ⟨0, _⟩ =>
    show win0_9.index t (0 : Fin 2) * 1024 ≤ (i 0).val ∧ (i 0).val < win0_9.index t (0 : Fin 2) * 1024 + 1024
    rw [e9_0, ht]; omega
  | ⟨1, _⟩ =>
    show win0_9.index t (1 : Fin 2) * 256 ≤ (i 1).val ∧ (i 1).val < win0_9.index t (1 : Fin 2) * 256 + 256
    rw [e9_1]; omega

/-- So after the run the whole array is the specification's. -/
theorem final9 (c : Dev nD) : (dats m 0 c).arrAt 9 cfg0.N = cbarNew (aH m c) (aCb m c) (aW m c) (aB m c) :=
  (dats m 0 c).arrAt_eq_of_cover 9 (cbarNew (aH m c) (aCb m c) (aW m c) (aB m c)) (fun t _ => flushed9_eq m c t) cover9

/-! ## Output window 10: the decay rate -/

/-- A coordinate `y` of point `t`'s block is row `1024 t + y 0`, lane `y 1` of the array. -/
theorem emb10 (t : Fin cfg0.N) (y : S1024x256.Idx) :
    ((cfg0.win 10).blk t).view.emb y = ix2 (rowAt t y) (laneAt y) := by
  obtain ⟨e6_0, e6_1, e7_0, e7_1, e8_0, e8_1, e9_0, e9_1, e10_0, e10_1⟩ := Blocks.out_idx t
  funext a; apply Fin.ext
  match a with
  | ⟨0, _⟩ => show win0_10.index t (0 : Fin 2) * 1024 + 1 * (y 0).val = t.val * 1024 + (y 0).val; rw [e10_0]; omega
  | ⟨1, _⟩ => show win0_10.index t (1 : Fin 2) * 256 + 1 * (y 1).val = (y 1).val; rw [e10_1]; omega

/-- What point `t` writes back is block `t` of the specification's array. -/
theorem flushed10_eq (c : Dev nD) (t : Fin cfg0.N) :
    (dats m 0 c).flushed 10 t = ((cfg0.win 10).blk t).view.read (Elt Ideal) (decay (aH m c) (aW m c) (aB m c)) := by
  rw [ValueP.flushed10]
  funext y
  show out0_10 (iblk m c 0 t) (iblk m c 1 t) (iblk m c 2 t) (iblk m c 3 t) (iblk m c 4 t) (iblk m c 5 t) y
    = decay (aH m c) (aW m c) (aB m c) (((cfg0.win 10).blk t).view.emb y)
  rw [emb10]
  exact Point.decay_at (iblk m c 0 t) (iblk m c 1 t) (iblk m c 2 t) (iblk m c 3 t) (iblk m c 4 t) (iblk m c 5 t)
    (aH m c) (aW m c) (aB m c) y (rowAt t y) (laneAt y) (at_h m c t y) (at_w m c t y) (at_b m c t y)

/-- An array index lies in point `t`'s block exactly when each coordinate lies in the block's range on its axis. -/
theorem mem_blk10 (t : Fin cfg0.N) (i : S65536x256.Idx) :
    i ∈ ((cfg0.win 10).blk t).view.set ↔ ∀ a : Fin 2, win0_10.index t a * S1024x256.size a ≤ (i a).val
      ∧ (i a).val < win0_10.index t a * S1024x256.size a + S1024x256.size a := by
  show i ∈ ((View.whole main_v5_4).slice (win0_10.rect t)).set ↔ _
  rw [View.set_slice_whole, Rect.mem_set_unit]
  exact Iff.rfl

/-- Every array index is in some point's block: row `r` belongs to point `r / 1024`. -/
theorem cover10 (i : S65536x256.Idx) :
    ∃ t : Fin cfg0.N, (cfg0.win 10).flush t = true ∧ i ∈ ((cfg0.win 10).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, by rw [show cfg0.N = 64 from N_0]; omega⟩, rfl⟩
  obtain ⟨e6_0, e6_1, e7_0, e7_1, e8_0, e8_1, e9_0, e9_1, e10_0, e10_1⟩ := Blocks.out_idx t
  refine ⟨t, flush0_10 t, ?_⟩
  rw [mem_blk10]
  intro a
  match a with
  | ⟨0, _⟩ =>
    show win0_10.index t (0 : Fin 2) * 1024 ≤ (i 0).val ∧ (i 0).val < win0_10.index t (0 : Fin 2) * 1024 + 1024
    rw [e10_0, ht]; omega
  | ⟨1, _⟩ =>
    show win0_10.index t (1 : Fin 2) * 256 ≤ (i 1).val ∧ (i 1).val < win0_10.index t (1 : Fin 2) * 256 + 256
    rw [e10_1]; omega

/-- So after the run the whole array is the specification's. -/
theorem final10 (c : Dev nD) : (dats m 0 c).arrAt 10 cfg0.N = decay (aH m c) (aW m c) (aB m c) :=
  (dats m 0 c).arrAt_eq_of_cover 10 (decay (aH m c) (aW m c) (aB m c)) (fun t _ => flushed10_eq m c t) cover10

/-! ## The run, read -/

/-- Every weakly fair execution of the idealized kernel terminates with the five result arrays at the specification's
    functions of the argument arrays, the arguments unchanged. -/
theorem run : θ_run defs (onTc (τ := τ) (main (F := Ideal))) ⟨m, fun _ => 0, ρ⟩ fun r => ∀ c : Dev nD,
      r.2.mem ((c : Thread nD τ).loc main_v5_0) = outGate (aH m c) (aW m c) (aB m c)
      ∧ r.2.mem ((c : Thread nD τ).loc main_v5_1) = hidden (aT m c) (aH m c) (aC m c) (aCb m c) (aW m c) (aB m c)
      ∧ r.2.mem ((c : Thread nD τ).loc main_v5_2) = cellNew (aT m c) (aH m c) (aC m c) (aCb m c) (aW m c) (aB m c)
      ∧ r.2.mem ((c : Thread nD τ).loc main_v5_3) = cbarNew (aH m c) (aCb m c) (aW m c) (aB m c)
      ∧ r.2.mem ((c : Thread nD τ).loc main_v5_4) = decay (aH m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c),
      (h c).2.2.1.trans (final8 m c), (h c).2.2.2.1.trans (final9 m c), (h c).2.2.2.2.1.trans (final10 m c),
      (h c).2.2.2.2.2⟩)
    (ValueP.run_blocks m ρ)

end Cert.KernelIdeal.Arrays

end
-- ==== Proof.RefValue.lean ====
/-
  The reference computes the same functions.

  The reference forms all seven gates at once: the contraction of `W[g, o, k]` with `h[r, k]` over `k` gives `[g, o, r]`,
  a transposition of the last two axes gives `[g, r, o]`, and the bias `b[g, o]` is broadcast along the rows and added; so
  the stacked array at `(g, r, o)` is gate `g`'s pre-activation at `(r, o)`, in the specification's own order of factors.
  Slice `g` of the stack, its unit axis dropped, is gate `g`'s array.  The logistic function is spelt out as
  `1 / (1 + e^(-x))`, softplus is a call whose body is the specification's, the times are broadcast from `[r]` to
  `[r, 1]` to `[r, o]`, and the five results are pointwise combinations of these: each is the specification's function, by
  unfolding.
-/
import proofs.«160114_j27230092657708_2_alg».proof.Proof.Gen.ReferenceIdeal.Read
import proofs.«160114_j27230092657708_2_alg».proof.Proof.Spec
import Idealize.ShloMosaic.Lib.ValueIdx

noncomputable section

open Idealize.ShloMosaic Idealize.ShloMosaic.ValueIdx Idealize.ShloMosaic.TcCoe Idealize.SL.Sem

namespace Cert.ReferenceIdeal.RefValue

open Cert.ReferenceIdeal Cert.ReferenceIdeal.Gen Cert.ReferenceIdeal.Read Cert.GateCell

variable (x0 : (⟨S65536, .f32⟩ : BufTy).Contents (Elt Ideal)) (x1 x2 x3 : (⟨S65536x256, .f32⟩ : BufTy).Contents (Elt Ideal))
  (x4 : (⟨S7x256x256, .f32⟩ : BufTy).Contents (Elt Ideal)) (x5 : (⟨S7x256, .f32⟩ : BufTy).Contents (Elt Ideal))

/-! ## The stacked pre-activations -/

/-- The stack `[7, 65536, 256]` at an index whose coordinates are `(g, r, o)` is gate `g`'s pre-activation at `(r, o)`. -/
theorem gates_apply (j : S7x65536x256.Idx) (g : Fin 7) (i : S65536x256.Idx)
    (h0 : (j 0).val = g.val) (h1 : (j 1).val = (i 0).val) (h2 : (j 2).val = (i 1).val) :
    val_main_v4 (F := Ideal) x1 x4 x5 j = gate x1 x4 x5 g i := by
  rw [val_main_v4_apply, val_main_v1_apply, val_main_v0_apply, val_main_v3_apply, val_main_v2_apply]
  unfold gate gateAt
  have eb : idx_main_v2 (idx_main_v3 j) = ix2 g (i 1) := funext fun a => Fin.ext (by
    match a with
    | ⟨0, _⟩ => exact h0
    | ⟨1, _⟩ => exact h2)
  rw [eb]
  congr 1
  refine Finset.sum_congr rfl fun k _ => ?_
  have el : lidx_main_v0 (idx_main_v1 j) k = ix3 g (i 1) k := funext fun a => Fin.ext (by
    match a with
    | ⟨0, _⟩ => exact h0
    | ⟨1, _⟩ => exact h2
    | ⟨2, _⟩ => rfl)
  have er : ridx_main_v0 (idx_main_v1 j) k = ix2 (i 0) k := funext fun a => Fin.ext (by
    match a with
    | ⟨0, _⟩ => exact h1
    | ⟨1, _⟩ => rfl)
  rw [el, er]
  rfl

/-- Row-major position `256 r + o` splits back into row `r` and lane `o`. -/
theorem row_of (i : S65536x256.Idx) : ((i 0).val * 256 + (i 1).val) / 256 % 65536 = (i 0).val := by
  have h0 : (i 0).val < 65536 := (i 0).isLt
  have h1 : (i 1).val < 256 := (i 1).isLt
  omega

theorem lane_of (i : S65536x256.Idx) : ((i 0).val * 256 + (i 1).val) % 256 = (i 1).val := by
  have h0 : (i 0).val < 65536 := (i 0).isLt
  have h1 : (i 1).val < 256 := (i 1).isLt
  omega

/-! ## Each gate's array: slice `g` of the stack with the unit axis dropped -/

theorem gate0_apply (i : S65536x256.Idx) : val_main_v6 (F := Ideal) x1 x4 x5 i = gate x1 x4 x5 0 i := by
  rw [val_main_v6_apply, val_main_v5_apply]
  exact gates_apply x1 x4 x5 (idx_main_v5 (idx_main_v6 i)) 0 i rfl (row_of i) (lane_of i)

theorem gate1_apply (i : S65536x256.Idx) : val_main_v14 (F := Ideal) x1 x4 x5 i = gate x1 x4 x5 1 i := by
  rw [val_main_v14_apply, val_main_v13_apply]
  exact gates_apply x1 x4 x5 (idx_main_v13 (idx_main_v14 i)) 1 i rfl (row_of i) (lane_of i)

theorem gate2_apply (i : S65536x256.Idx) : val_main_v22 (F := Ideal) x1 x4 x5 i = gate x1 x4 x5 2 i := by
  rw [val_main_v22_apply, val_main_v21_apply]
  exact gates_apply x1 x4 x5 (idx_main_v21 (idx_main_v22 i)) 2 i rfl (row_of i) (lane_of i)

theorem gate3_apply (i : S65536x256.Idx) : val_main_v30 (F := Ideal) x1 x4 x5 i = gate x1 x4 x5 3 i := by
  rw [val_main_v30_apply, val_main_v29_apply]
  exact gates_apply x1 x4 x5 (idx_main_v29 (idx_main_v30 i)) 3 i rfl (row_of i) (lane_of i)

theorem gate4_apply (i : S65536x256.Idx) : val_main_v38 (F := Ideal) x1 x4 x5 i = gate x1 x4 x5 4 i := by
  rw [val_main_v38_apply, val_main_v37_apply]
  exact gates_apply x1 x4 x5 (idx_main_v37 (idx_main_v38 i)) 4 i rfl (row_of i) (lane_of i)

theorem gate5_apply (i : S65536x256.Idx) : val_main_v46 (F := Ideal) x1 x4 x5 i = gate x1 x4 x5 5 i := by
  rw [val_main_v46_apply, val_main_v45_apply]
  exact gates_apply x1 x4 x5 (idx_main_v45 (idx_main_v46 i)) 5 i rfl (row_of i) (lane_of i)

theorem gate6_apply (i : S65536x256.Idx) : val_main_v49 (F := Ideal) x1 x4 x5 i = gate x1 x4 x5 6 i := by
  rw [val_main_v49_apply, val_main_v48_apply]
  exact gates_apply x1 x4 x5 (idx_main_v48 (idx_main_v49 i)) 6 i rfl (row_of i) (lane_of i)

/-! ## The gates' activations -/

theorem sigma0_apply (i : S65536x256.Idx) : val_main_v12 (F := Ideal) x1 x4 x5 i = sigma (gate x1 x4 x5 0 i) := by
  simp only [val_main_v12_apply, val_main_v11_apply, val_main_cst_0_apply, val_main_v10_apply, val_main_v9_apply,
    val_main_cst_apply, val_main_v8_apply, val_main_v7_apply, gate0_apply]
  rfl

theorem sigma1_apply (i : S65536x256.Idx) : val_main_v20 (F := Ideal) x1 x4 x5 i = sigma (gate x1 x4 x5 1 i) := by
  simp only [val_main_v20_apply, val_main_v19_apply, val_main_cst_2_apply, val_main_v18_apply, val_main_v17_apply,
    val_main_cst_1_apply, val_main_v16_apply, val_main_v15_apply, gate1_apply]
  rfl

theorem sigma2_apply (i : S65536x256.Idx) : val_main_v28 (F := Ideal) x1 x4 x5 i = sigma (gate x1 x4 x5 2 i) := by
  simp only [val_main_v28_apply, val_main_v27_apply, val_main_cst_4_apply, val_main_v26_apply, val_main_v25_apply,
    val_main_cst_3_apply, val_main_v24_apply, val_main_v23_apply, gate2_apply]
  rfl

theorem sigma3_apply (i : S65536x256.Idx) : val_main_v36 (F := Ideal) x1 x4 x5 i = sigma (gate x1 x4 x5 3 i) := by
  simp only [val_main_v36_apply, val_main_v35_apply, val_main_cst_6_apply, val_main_v34_apply, val_main_v33_apply,
    val_main_cst_5_apply, val_main_v32_apply, val_main_v31_apply, gate3_apply]
  rfl

theorem sigma4_apply (i : S65536x256.Idx) : val_main_v44 (F := Ideal) x1 x4 x5 i = sigma (gate x1 x4 x5 4 i) := by
  simp only [val_main_v44_apply, val_main_v43_apply, val_main_cst_8_apply, val_main_v42_apply, val_main_v41_apply,
    val_main_cst_7_apply, val_main_v40_apply, val_main_v39_apply, gate4_apply]
  rfl

theorem tanh5_apply (i : S65536x256.Idx) :
    val_main_v47 (F := Ideal) x1 x4 x5 i = FloatOps.hostUnary .tanh (gate x1 x4 x5 5 i) := by
  simp only [val_main_v47_apply, gate5_apply]

/-- The call to softplus on gate 6. -/
theorem decay_apply (i : S65536x256.Idx) : val_main_v50 (F := Ideal) x1 x4 x5 i = decay x1 x4 x5 i := by
  simp only [val_main_v50_apply, val_main_call0_v4_apply, val_main_call0_v3_apply, val_main_call0_v2_apply,
    val_main_call0_cst_apply, val_main_call0_v6_apply, val_main_call0_v5_apply, val_main_call0_v11_apply,
    val_main_call0_v1_apply, val_main_call0_v0_apply, val_main_call0_v10_apply, val_main_call0_v9_apply,
    val_main_call0_v8_apply, val_main_call0_v7_apply, gate6_apply]
  rfl

/-- The times broadcast from `[r]` through `[r, 1]` to `[r, o]` read `dt[r]`. -/
theorem times_apply (i : S65536x256.Idx) : val_main_v54 (F := Ideal) x0 i = x0 (ix1 (i 0)) := by
  rw [val_main_v54_apply, val_main_v51_apply]
  exact congrArg x0 (funext fun a => Fin.ext (by
    match a with
    | ⟨0, _⟩ => rfl))

/-- The decayed cell memory. -/
theorem cellT_apply (i : S65536x256.Idx) :
    val_main_v58 (F := Ideal) x0 x1 x2 x3 x4 x5 i = cellT x0 x1 x2 x3 x4 x5 i := by
  simp only [val_main_v58_apply, val_main_v57_apply, val_main_v52_apply, val_main_v56_apply, val_main_v55_apply,
    val_main_v53_apply, decay_apply, times_apply]
  rfl

/-! ## The five results -/

theorem outGate_eq : val_main_v28 (F := Ideal) x1 x4 x5 = outGate x1 x4 x5 :=
  funext fun i => sigma2_apply x1 x4 x5 i

theorem hidden_eq : val_main_v66 (F := Ideal) x0 x1 x2 x3 x4 x5 = hidden x0 x1 x2 x3 x4 x5 := by
  funext i
  simp only [val_main_v66_apply, val_main_v65_apply, sigma2_apply, cellT_apply]
  rfl

theorem cellNew_eq : val_main_v61 (F := Ideal) x0 x1 x2 x3 x4 x5 = cellNew x0 x1 x2 x3 x4 x5 := by
  funext i
  simp only [val_main_v61_apply, val_main_v59_apply, val_main_v60_apply, sigma1_apply, sigma0_apply, tanh5_apply, cellT_apply]
  rfl

theorem cbarNew_eq : val_main_v64 (F := Ideal) x1 x3 x4 x5 = cbarNew x1 x3 x4 x5 := by
  funext i
  simp only [val_main_v64_apply, val_main_v62_apply, val_main_v63_apply, sigma4_apply, sigma3_apply, tanh5_apply]
  rfl

theorem decay_eq : val_main_v50 (F := Ideal) x1 x4 x5 = decay x1 x4 x5 :=
  funext fun i => decay_apply x1 x4 x5 i

end Cert.ReferenceIdeal.RefValue

end
-- ==== Proof.lean ====
/-
  The five claims for the fused gate kernel against its reference.

  Both idealized programs end with the five result arrays at ONE family of functions of the argument arrays, stated in
  Proof/Spec.lean: with gate `g`'s pre-activation `(sum over k of W[g, o, k] * h[r, k]) + b[g, o]`,
      outGate = sigma (gate 2),  decay = softplus (gate 6),  cell(t) = cbar + (c - cbar) * e^((-decay) * dt),
      hidden = outGate * tanh (cell(t)),  cellNew = sigma (gate 1) * cell(t) + sigma (gate 0) * tanh (gate 5),
      cbarNew = sigma (gate 4) * cbar + sigma (gate 3) * tanh (gate 5).
  The kernel reaches them block by block: its 64 grid points each write 1024 rows, the fused 256 x 1792 matrix product plus
  bias row giving all seven pre-activations of a row at once (Proof/Logits.lean, Proof/Point.lean, Proof/Arrays.lean); the
  reference reaches them by one contraction, a transposition and slices (Proof/RefValue.lean).  The only laws used are that
  a product commutes, that the one-operation logistic is `1 / (1 + e^(-x))`, and that `0 - s = -s`; none needs the inputs to
  be finite, so the precondition is never opened.  The three frames are the programs' runs with the results forgotten, and the
  idealization rewrote nothing, so there is nothing to preserve.
-/
import proofs.«160114_j27230092657708_2_alg».proof.Defs
import proofs.«160114_j27230092657708_2_alg».proof.Proof.Gen.Kernel
import proofs.«160114_j27230092657708_2_alg».proof.Proof.Gen.Kernel.Skeleton
import proofs.«160114_j27230092657708_2_alg».proof.Proof.Gen.Kernel.Launch
import proofs.«160114_j27230092657708_2_alg».proof.Proof.Gen.Kernel.Points
import proofs.«160114_j27230092657708_2_alg».proof.Proof.Gen.Kernel.Frame
import proofs.«160114_j27230092657708_2_alg».proof.Proof.Gen.KernelIdeal
import proofs.«160114_j27230092657708_2_alg».proof.Proof.Gen.KernelIdeal.Skeleton
import proofs.«160114_j27230092657708_2_alg».proof.Proof.Gen.KernelIdeal.Launch
import proofs.«160114_j27230092657708_2_alg».proof.Proof.Gen.KernelIdeal.Points
import proofs.«160114_j27230092657708_2_alg».proof.Proof.Gen.KernelIdeal.Frame
import proofs.«160114_j27230092657708_2_alg».proof.Proof.Gen.ReferenceIdeal
import proofs.«160114_j27230092657708_2_alg».proof.Proof.Gen.Pre_finite_inputs
import proofs.«160114_j27230092657708_2_alg».proof.Proof.KernelIdealValueP
import proofs.«160114_j27230092657708_2_alg».proof.Proof.Gen.ReferenceIdeal.Run
import proofs.«160114_j27230092657708_2_alg».proof.Proof.Gen.ReferenceIdeal.Read
import proofs.«160114_j27230092657708_2_alg».proof.Proof.Spec
import proofs.«160114_j27230092657708_2_alg».proof.Proof.Arrays
import proofs.«160114_j27230092657708_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's run, its five results forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2.2.2.2)
    (Cert.ReferenceIdeal.Value.run (F := Ideal) m ρ)

/-- From memories that agree on the six arguments, both programs end with the specification's five arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, _, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2.1.trans ?_, (h c).2.2.2.1.trans ?_,
    (h c).2.2.2.2.1.trans ?_, (h c).2.2.2.2.2⟩
  · rw [Cert.ReferenceIdeal.Read.val_main_v28_eq, Cert.ReferenceIdeal.RefValue.outGate_eq, a1, a4, a5]
  · rw [Cert.ReferenceIdeal.Read.val_main_v66_eq, Cert.ReferenceIdeal.RefValue.hidden_eq, a0, a1, a2, a3, a4, a5]
  · rw [Cert.ReferenceIdeal.Read.val_main_v61_eq, Cert.ReferenceIdeal.RefValue.cellNew_eq, a0, a1, a2, a3, a4, a5]
  · rw [Cert.ReferenceIdeal.Read.val_main_v64_eq, Cert.ReferenceIdeal.RefValue.cbarNew_eq, a1, a3, a4, a5]
  · rw [Cert.ReferenceIdeal.Read.val_main_v50_eq, Cert.ReferenceIdeal.RefValue.decay_eq, a1, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
